-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x4096x1024 : Shape := ⟨3, ![8, 4096, 1024]⟩
abbrev S8x1024x4096 : Shape := ⟨3, ![8, 1024, 4096]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S8x1024x4096 : S_.BroadcastsInDim S8x1024x4096 (![] : Fin 0 → Fin S8x1024x4096.rank)
  reducesTo_S8x1024x4096_S_d0_1_2 : S8x1024x4096.ReducesTo [0, 1, 2] S_

variable [Facts]

def fn_part1 {F : FTy → Type} [FloatOps F] (main_v13 : IVec S_ 1) (main_v16 : IVec S8x1024x4096 1) : IVec S_ 1 :=
  let main_c_5 : IVec S_ 1 := constantI S_ 1 1#1
  let main_v17 : IVec S_ 1 := (fun x v => Host.reduce IntOp.andi x v reducesTo_S8x1024x4096_S_d0_1_2 h_S_) main_v16 main_c_5
  let main_v18 : IVec S_ 1 := andi main_v13 main_v17
  main_v18

def fn {F : FTy → Type} [FloatOps F] (main_arg0 : FVec F S8x2048x1024 .f32) (main_arg1 : FVec F S8x4096x1024 .f32) (main_arg2 : FVec F S8x4096x1024 .f32) (main_arg3 : FVec F S8x1024x4096 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S8x4096x1024 .f32 := Host.absf main_arg2
  let main_cst_2 : FVec F S_ .f32 := constant S_ .f32 0x7F800000#32
  let main_v10 : FVec F S8x4096x1024 .f32 := broadcastInDim S8x4096x1024 ![] bcast_S_S8x4096x1024 main_cst_2
  let main_v11 : IVec S8x4096x1024 1 := cmpf .olt main_v9 main_v10
  let main_c_3 : IVec S_ 1 := constantI S_ 1 1#1
  let main_v12 : IVec S_ 1 := (fun x v => Host.reduce IntOp.andi x v reducesTo_S8x4096x1024_S_d0_1_2 h_S_) main_v11 main_c_3
  let main_v13 : IVec S_ 1 := andi main_v8 main_v12
  let main_v14 : FVec F S8x1024x4096 .f32 := Host.absf main_arg3
  let main_cst_4 : FVec F S_ .f32 := constant S_ .f32 0x7F800000#32
  let main_v15 : FVec F S8x1024x4096 .f32 := broadcastInDim S8x1024x4096 ![] bcast_S_S8x1024x4096 main_cst_4
  let main_v16 : IVec S8x1024x4096 1 := cmpf .olt main_v14 main_v15
  fn_part1 (F := F) main_v13 main_v16
-- ==== Kernel.lean ====
abbrev S8x2048x1024 : Shape := ⟨3, ![8, 2048, 1024]⟩
abbrev S8x4096x1024 : Shape := ⟨3, ![8, 4096, 1024]⟩
abbrev S8x1024x4096 : Shape := ⟨3, ![8, 1024, 4096]⟩
abbrev S1x2048x1024 : Shape := ⟨3, ![1, 2048, 1024]⟩
abbrev S1x256x1024 : Shape := ⟨3, ![1, 256, 1024]⟩
abbrev S1x1024x256 : Shape := ⟨3, ![1, 1024, 256]⟩
abbrev S2048x1024 : Shape := ⟨2, ![2048, 1024]⟩
abbrev S256x1024 : Shape := ⟨2, ![256, 1024]⟩
abbrev S1024x256 : Shape := ⟨2, ![1024, 256]⟩
abbrev S2048x256 : Shape := ⟨2, ![2048, 256]⟩

abbrev nBuf : Space → Nat
  | .hbm => 9
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S8x4096x1024, .f32⟩
  | .hbm, ⟨2, _⟩ => ⟨S8x4096x1024, .f32⟩
  | .hbm, ⟨3, _⟩ => ⟨S8x1024x4096, .f32⟩
  | .hbm, ⟨4, _⟩ => ⟨S8x2048x1024, .bf16⟩
  | .hbm, ⟨5, _⟩ => ⟨S8x4096x1024, .bf16⟩
  | .hbm, ⟨6, _⟩ => ⟨S8x4096x1024, .bf16⟩
  | .hbm, ⟨7, _⟩ => ⟨S8x1024x4096, .bf16⟩
  | .hbm, ⟨8, _⟩ => ⟨S8x2048x1024, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x2048x1024, .f32⟩
  | .local _ .vmem, ⟨9, _⟩ => ⟨S1x2048x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  shapeCasts_S2048x1024_S1x2048x1024 : S2048x1024.ShapeCasts S1x2048x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  dot_S2048x1024_S256x1024_S2048x256_1_1_0_0_n_n_wf : DotDims.WF S2048x1024 S256x1024 S2048x256 [1] [1] [0] [0] [] []
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x2048x1024.size a
  hwx0_0 : ∀ i : grid0.Coords, EltTy.bits .bf16 = 32 ∨ (Rect.block (s := S8x2048x1024) S1x2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S8x4096x1024.size a
  hwx0_1 : ∀ i : grid0.Coords, EltTy.bits .bf16 = 32 ∨ (Rect.block (s := S8x4096x1024) S1x256x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S8x4096x1024.size a
  hwx0_2 : ∀ i : grid0.Coords, EltTy.bits .bf16 = 32 ∨ (Rect.block (s := S8x4096x1024) S1x256x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x256.size a ≤ S8x1024x4096.size a
  hwx0_3 : ∀ i : grid0.Coords, EltTy.bits .bf16 = 32 ∨ (Rect.block (s := S8x1024x4096) S1x1024x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x1024.size a ≤ S8x2048x1024.size a
  hwx0_4 : ∀ i : grid0.Coords, EltTy.bits .f32 = 32 ∨ (Rect.block (s := S8x2048x1024) S1x2048x1024.size (cc0_transform_4 i) (hinb0_4 i)).WholeWords (EltTy.packing .f32)

variable [Facts₀]

def dot_S2048x1024_S256x1024_S2048x256_1_1_0_0_n_n : DotDims S2048x1024 S256x1024 S2048x256 where
  lhsContracting := [1]
  rhsContracting := [1]
  lhsNonContracting := [0]
  rhsNonContracting := [0]
  lhsBatch := []
  rhsBatch := []
  wf := dot_S2048x1024_S256x1024_S2048x256_1_1_0_0_n_n_wf
def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_v0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S8x4096x1024 : Shape := ⟨3, ![8, 4096, 1024]⟩
abbrev S8x1024x4096 : Shape := ⟨3, ![8, 1024, 4096]⟩
abbrev S8x2048x4096 : Shape := ⟨3, ![8, 2048, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x4096x1024, .f32⟩
  | .hbm, ⟨2, _⟩ => ⟨S8x4096x1024, .f32⟩
  | .hbm, ⟨3, _⟩ => ⟨S8x1024x4096, .f32⟩
  | .hbm, ⟨4, _⟩ => ⟨S8x2048x4096, .f32⟩
  | .hbm, ⟨5, _⟩ => ⟨S8x2048x4096, .f32⟩
  | .hbm, ⟨6, _⟩ => ⟨S8x2048x4096, .f32⟩
  | .hbm, ⟨7, _⟩ => ⟨S8x2048x4096, .f32⟩
  | .hbm, ⟨8, _⟩ => ⟨S_, .f32⟩
  | .hbm, ⟨9, _⟩ => ⟨S8x2048x4096, .f32⟩
  | .hbm, ⟨10, _⟩ => ⟨S8x2048x4096, .f32⟩
  | .hbm, ⟨11, _⟩ => ⟨S_, .f32⟩
  | .hbm, ⟨12, _⟩ => ⟨S8x2048x4096, .f32⟩
  | .hbm, ⟨13, _⟩ => ⟨S8x2048x4096, .f32⟩
  | .hbm, ⟨14, _⟩ => ⟨S8x2048x4096, .f32⟩
  | .hbm, ⟨15, _⟩ => ⟨S8x2048x4096, .f32⟩
  | .hbm, ⟨16, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S8x2048x4096 : S_.BroadcastsInDim S8x2048x4096 (![] : Fin 0 → Fin S8x2048x4096.rank)
  dot_S8x2048x1024_S8x4096x1024_S8x2048x4096_2_2_1_1_0_0_wf : DotDims.WF S8x2048x1024 S8x4096x1024 S8x2048x4096 [2] [2] [1] [1] [0] [0]
  dot_S8x2048x4096_S8x1024x4096_S8x2048x1024_2_2_1_1_0_0_wf : DotDims.WF S8x2048x4096 S8x1024x4096 S8x2048x1024 [2] [2] [1] [1] [0] [0]

variable [Facts₀]

def dot_S8x2048x1024_S8x4096x1024_S8x2048x4096_2_2_1_1_0_0 : DotDims S8x2048x1024 S8x4096x1024 S8x2048x4096 where
  lhsContracting := [2]
  rhsContracting := [2]
  lhsNonContracting := [1]
  rhsNonContracting := [1]
  lhsBatch := [0]
  rhsBatch := [0]
  wf := dot_S8x2048x1024_S8x4096x1024_S8x2048x4096_2_2_1_1_0_0_wf
def dot_S8x2048x4096_S8x1024x4096_S8x2048x1024_2_2_1_1_0_0 : DotDims S8x2048x4096 S8x1024x4096 S8x2048x1024 where
  lhsContracting := [2]
  rhsContracting := [2]
  lhsNonContracting := [1]
  rhsNonContracting := [1]
  lhsBatch := [0]
  rhsBatch := [0]
  wf := dot_S8x2048x4096_S8x1024x4096_S8x2048x1024_2_2_1_1_0_0_wf

class Facts : Prop extends Facts₀ where

variable [Facts]
-- ==== Proof.SwigluSpec.lean ====
/-
  The function both programs compute, over the extended reals, and the one law of sums that joins them.

  For expert `e`, token row `r` and hidden unit `f` the gate and up projections are
  `proj x w e r f = ∑ k, x[e,r,k] · w[e,f,k]`; the activation is `act g u = g · logistic g · u`
  (SiLU of the gate times the up projection); the output is
  `swiglu x wg wu wd [e,r,d] = ∑ f < 4096, act (proj x wg e r f) (proj x wu e r f) · wd[e,d,f]`.

  The kernel computes the same sum sixteen tiles of 256 hidden units at a time, so the law needed is that a sum
  over `Fin 4096` is the sum over the sixteen tiles of the sums inside each tile (`sum_tiles`). Addition on the
  extended reals is a commutative monoid, so this regrouping holds at the infinities too and no finiteness
  of the inputs is used.
-/
import Idealize.ShloMosaic.PureOps.Ideal
import Idealize.ShloMosaic.PureOps.Ideal.Laws
import Idealize.ShloMosaic.Lib.ValueIdx
import Idealize.ShloMosaic.Lib.IdealHost

noncomputable section

open scoped BigOperators

namespace Cert.Swiglu

open Idealize.ShloMosaic Idealize.ShloMosaic.ValueIdx

/-- Indices of the token array and of the result: expert, row, model coordinate. -/
abbrev XIdx := (⟨3, ![8, 2048, 1024]⟩ : Shape).Idx
/-- Indices of the gate and up weights: expert, hidden unit, model coordinate. -/
abbrev WIdx := (⟨3, ![8, 4096, 1024]⟩ : Shape).Idx
/-- Indices of the down weights: expert, model coordinate, hidden unit. -/
abbrev DIdx := (⟨3, ![8, 1024, 4096]⟩ : Shape).Idx

/-- One entry of a projection: row `r` of expert `e`'s tokens against row `f` of its weights. -/
def proj (x : XIdx → EReal) (w : WIdx → EReal) (e : Fin 8) (r : Fin 2048) (f : Fin 4096) : EReal :=
  ∑ k : Fin 1024, x (ix3 e r k) * w (ix3 e f k)

/-- SiLU of the gate times the up projection. -/
def act (g u : EReal) : EReal := g * Ideal.logistic g * u

/-- Hidden unit `f`'s contribution to output entry `[e, r, d]`. -/
def term (x : XIdx → EReal) (wg wu : WIdx → EReal) (wd : DIdx → EReal) (e : Fin 8) (r : Fin 2048) (d : Fin 1024)
    (f : Fin 4096) : EReal :=
  act (proj x wg e r f) (proj x wu e r f) * wd (ix3 e d f)

/-- The batched SwiGLU expert layer, entry by entry. -/
def swiglu (x : XIdx → EReal) (wg wu : WIdx → EReal) (wd : DIdx → EReal) : XIdx → EReal := fun i =>
  ∑ f : Fin 4096, term x wg wu wd (i 0) (i 1) (i 2) f

/-- Hidden unit `j` of tile `s`, as a hidden unit of the whole layer. -/
def tileIdx (s : Fin 16) (j : Fin 256) : Fin 4096 := ⟨256 * s.val + j.val, by have := s.isLt; have := j.isLt; omega⟩

@[simp] theorem tileIdx_val (s : Fin 16) (j : Fin 256) : (tileIdx s j).val = 256 * s.val + j.val := rfl

/-- A sum over the 4096 hidden units is the sum over the sixteen tiles of the sums inside each tile. -/
theorem sum_tiles {M : Type*} [AddCommMonoid M] (g : Fin 4096 → M) :
    ∑ f : Fin 4096, g f = ∑ s : Fin 16, ∑ j : Fin 256, g (tileIdx s j) := by
  rw [← Equiv.sum_comp (finProdFinEquiv (m := 16) (n := 256)) g, Fintype.sum_prod_type]
  refine Finset.sum_congr rfl fun s _ => Finset.sum_congr rfl fun j _ => congrArg g (Fin.ext ?_)
  show j.val + 256 * s.val = 256 * s.val + j.val
  omega

/-- The layer's output as the sum, over the sixteen tiles, of each tile's 256 contributions. -/
theorem swiglu_tiles (x : XIdx → EReal) (wg wu : WIdx → EReal) (wd : DIdx → EReal) (i : XIdx) :
    swiglu x wg wu wd i = ∑ s : Fin 16, ∑ j : Fin 256, term x wg wu wd (i 0) (i 1) (i 2) (tileIdx s j) :=
  sum_tiles _

/-- The logistic function as the reference spells it, with the literal `1.0` read as the real one. -/
theorem logistic_spelled (g : EReal) :
    Ideal.div (Ideal.ofBits .f32 0x3F800000#32) (Ideal.ofBits .f32 0x3F800000#32 + Ideal.exp (-g)) = Ideal.logistic g := by
  rw [Ideal.ofBits_one_f32]; rfl

end Cert.Swiglu

end
-- ==== Proof.RefIsSwiglu.lean ====
/-
  The reference program's result, read entry by entry, is the SwiGLU layer of the specification.

  The reference contracts the model axis twice (gate and up projections, expert by expert), multiplies the gate by
  `1 / (1 + exp (−gate))` and by the up projection, and contracts the 4096 hidden units against the down
  weights. Each contraction at an entry is the plain sum over its one contracted axis, with the expert
  coordinate carried along; the quotient is the logistic function, the literal `1.0` being the real one.
-/
import proofs.«115614_j4501125726437_2_alg».proof.Proof.Gen.ReferenceIdeal.Read
import proofs.«115614_j4501125726437_2_alg».proof.Proof.SwigluSpec

noncomputable section

open scoped BigOperators

namespace Cert.ReferenceIdeal.RefValue

open Cert.ReferenceIdeal Cert.ReferenceIdeal.Read Idealize.ShloMosaic Idealize.ShloMosaic.ValueIdx

/-! ## Where each contraction reads its operands -/

theorem gate_lhs (e : Fin 8) (r : Fin 2048) (f : Fin 4096) (k : Fin 1024) : lidx_main_v0 (ix3 e r f) k = ix3 e r k :=
  funext fun a => by match a with | ⟨0, _⟩ => rfl | ⟨1, _⟩ => rfl | ⟨2, _⟩ => rfl
theorem gate_rhs (e : Fin 8) (r : Fin 2048) (f : Fin 4096) (k : Fin 1024) : ridx_main_v0 (ix3 e r f) k = ix3 e f k :=
  funext fun a => by match a with | ⟨0, _⟩ => rfl | ⟨1, _⟩ => rfl | ⟨2, _⟩ => rfl
theorem up_lhs (e : Fin 8) (r : Fin 2048) (f : Fin 4096) (k : Fin 1024) : lidx_main_v1 (ix3 e r f) k = ix3 e r k :=
  funext fun a => by match a with | ⟨0, _⟩ => rfl | ⟨1, _⟩ => rfl | ⟨2, _⟩ => rfl
theorem up_rhs (e : Fin 8) (r : Fin 2048) (f : Fin 4096) (k : Fin 1024) : ridx_main_v1 (ix3 e r f) k = ix3 e f k :=
  funext fun a => by match a with | ⟨0, _⟩ => rfl | ⟨1, _⟩ => rfl | ⟨2, _⟩ => rfl
theorem down_lhs (e : Fin 8) (r : Fin 2048) (d : Fin 1024) (f : Fin 4096) : lidx_main_v4 (ix3 e r d) f = ix3 e r f :=
  funext fun a => by match a with | ⟨0, _⟩ => rfl | ⟨1, _⟩ => rfl | ⟨2, _⟩ => rfl
theorem down_rhs (e : Fin 8) (r : Fin 2048) (d : Fin 1024) (f : Fin 4096) : ridx_main_v4 (ix3 e r d) f = ix3 e d f :=
  funext fun a => by match a with | ⟨0, _⟩ => rfl | ⟨1, _⟩ => rfl | ⟨2, _⟩ => rfl

/-! ## The stages at an entry -/

/-- The gate projection at `[e, r, f]`. -/
theorem gate_apply (x0 : (⟨S8x2048x1024, .f32⟩ : BufTy).Contents (Elt Ideal)) (x1 : (⟨S8x4096x1024, .f32⟩ : BufTy).Contents (Elt Ideal))
    (e : Fin 8) (r : Fin 2048) (f : Fin 4096) :
    val_main_v0 (F := Ideal) x0 x1 (ix3 e r f) = Cert.Swiglu.proj x0 x1 e r f := by
  rw [val_main_v0_apply]
  simp only [gate_lhs, gate_rhs]
  rfl

/-- The up projection at `[e, r, f]`. -/
theorem up_apply (x0 : (⟨S8x2048x1024, .f32⟩ : BufTy).Contents (Elt Ideal)) (x2 : (⟨S8x4096x1024, .f32⟩ : BufTy).Contents (Elt Ideal))
    (e : Fin 8) (r : Fin 2048) (f : Fin 4096) :
    val_main_v1 (F := Ideal) x0 x2 (ix3 e r f) = Cert.Swiglu.proj x0 x2 e r f := by
  rw [val_main_v1_apply]
  simp only [up_lhs, up_rhs]
  rfl

/-- The hidden activation at `[e, r, f]`: the gate times its logistic times the up projection. -/
theorem hidden_apply (x0 : (⟨S8x2048x1024, .f32⟩ : BufTy).Contents (Elt Ideal)) (x1 x2 : (⟨S8x4096x1024, .f32⟩ : BufTy).Contents (Elt Ideal))
    (e : Fin 8) (r : Fin 2048) (f : Fin 4096) :
    val_main_v3 (F := Ideal) x0 x1 x2 (ix3 e r f)
      = Cert.Swiglu.act (Cert.Swiglu.proj x0 x1 e r f) (Cert.Swiglu.proj x0 x2 e r f) := by
  rw [val_main_v3_apply, val_main_v2_apply, val_main_call0_v5_apply, val_main_call0_v4_apply, val_main_call0_cst_0_apply,
    val_main_call0_v3_apply, val_main_call0_v2_apply, val_main_call0_cst_apply, val_main_call0_v1_apply,
    val_main_call0_v0_apply, up_apply, gate_apply]
  unfold Cert.Swiglu.act
  rw [← Cert.Swiglu.logistic_spelled]
  rfl

/-- The reference's result is the specification's layer of its four arguments. -/
theorem result_eq (x0 : (⟨S8x2048x1024, .f32⟩ : BufTy).Contents (Elt Ideal)) (x1 x2 : (⟨S8x4096x1024, .f32⟩ : BufTy).Contents (Elt Ideal))
    (x3 : (⟨S8x1024x4096, .f32⟩ : BufTy).Contents (Elt Ideal)) :
    val_main_v4 (F := Ideal) x0 x1 x2 x3 = Cert.Swiglu.swiglu x0 x1 x2 x3 := by
  funext i
  obtain ⟨e, r, d, rfl⟩ : ∃ (e : Fin 8) (r : Fin 2048) (d : Fin 1024), i = ix3 e r d := ⟨i 0, i 1, i 2, eq_ix3 i⟩
  rw [val_main_v4_apply]
  unfold Cert.Swiglu.swiglu Cert.Swiglu.term
  refine Finset.sum_congr rfl fun f _ => ?_
  rw [down_lhs, down_rhs, hidden_apply]

end Cert.ReferenceIdeal.RefValue

end
-- ==== Proof.TileStep.lean ====
/-
  One grid point's arithmetic, read at an entry.

  At a grid point the body holds expert `e`'s whole token block `a` [1,2048,1024], one 256-row tile of the gate
  and up weights `g`, `u` [1,256,1024], the matching 256-column tile of the down weights `w` [1,1024,256], and
  the output block `acc` [1,2048,1024] as the points before left it. It stores
  `acc[0,r,d] + ∑ j < 256, act (∑ k, a[0,r,k]·g[0,j,k]) (∑ k, a[0,r,k]·u[0,j,k]) · w[0,d,j]`:
  three matrix products into zero accumulators, each a plain sum over its one contracted axis at the ideal
  values, the narrowing of the hidden tile the identity there, and the unit leading axis of every block cast
  away and back.
-/
import proofs.«115614_j4501125726437_2_alg».proof.Proof.Gen.KernelIdeal.Skeleton
import proofs.«115614_j4501125726437_2_alg».proof.Proof.SwigluSpec
import Idealize.ShloMosaic.Lib.Pipeline.Value
import Idealize.ShloMosaic.Lib.ValueIdx
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-! ## The two contractions at an entry

Both matrix products contract the second axis of each operand and have no batch axis: the left operand is read at
(row, k), the right at (column, k). -/

theorem proj_lhs0 (i : S2048x256.Idx) (q : dot_S2048x1024_S256x1024_S2048x256_1_1_0_0_n_n.contr.Idx) : (dot_S2048x1024_S256x1024_S2048x256_1_1_0_0_n_n.lhsIdx i q 0).val = (i 0).val := by
  unfold DotDims.lhsIdx
  rw [dif_neg (show ¬(0 : Fin S2048x1024.rank) ∈ dot_S2048x1024_S256x1024_S2048x256_1_1_0_0_n_n.lhsBatch by decide),
    dif_pos (show (0 : Fin S2048x1024.rank) ∈ dot_S2048x1024_S256x1024_S2048x256_1_1_0_0_n_n.lhsNonContracting by decide)]
  rfl
theorem proj_lhs1 (i : S2048x256.Idx) (q : dot_S2048x1024_S256x1024_S2048x256_1_1_0_0_n_n.contr.Idx) : (dot_S2048x1024_S256x1024_S2048x256_1_1_0_0_n_n.lhsIdx i q 1).val = (q ⟨0, by decide⟩).val :=
  dot_S2048x1024_S256x1024_S2048x256_1_1_0_0_n_n.lhsIdx_val_of_single rfl i q
theorem proj_rhs0 (i : S2048x256.Idx) (q : dot_S2048x1024_S256x1024_S2048x256_1_1_0_0_n_n.contr.Idx) : (dot_S2048x1024_S256x1024_S2048x256_1_1_0_0_n_n.rhsIdx i q 0).val = (i 1).val := by
  unfold DotDims.rhsIdx
  rw [dif_neg (show ¬(0 : Fin S256x1024.rank) ∈ dot_S2048x1024_S256x1024_S2048x256_1_1_0_0_n_n.rhsBatch by decide),
    dif_pos (show (0 : Fin S256x1024.rank) ∈ dot_S2048x1024_S256x1024_S2048x256_1_1_0_0_n_n.rhsNonContracting by decide)]
  rfl
theorem proj_rhs1 (i : S2048x256.Idx) (q : dot_S2048x1024_S256x1024_S2048x256_1_1_0_0_n_n.contr.Idx) : (dot_S2048x1024_S256x1024_S2048x256_1_1_0_0_n_n.rhsIdx i q 1).val = (q ⟨0, by decide⟩).val :=
  dot_S2048x1024_S256x1024_S2048x256_1_1_0_0_n_n.rhsIdx_val_of_single rfl i q

/-- A [2048,1024] block against a [256,1024] tile into a zero accumulator: entry `(r, j)` is the sum over the
    1024 model coordinates. -/
theorem proj_apply (a : FVec Ideal S2048x1024 .bf16) (w : FVec Ideal S256x1024 .bf16) (r : Fin 2048) (c : Fin 256) :
    matmul dot_S2048x1024_S256x1024_S2048x256_1_1_0_0_n_n none a w (constant S2048x256 .f32 0x00000000#32) (ix2 r c)
      = ∑ k : Fin 1024, a (ix2 r k) * w (ix2 c k) := by
  simp only [matmul]
  rw [Ideal.matmul_constant_zero_apply, ← Equiv.sum_comp (contrEquiv1 dot_S2048x1024_S256x1024_S2048x256_1_1_0_0_n_n 1024 rfl rfl).symm]
  refine Finset.sum_congr rfl fun k _ => ?_
  have hk := contrEquiv1_symm_val dot_S2048x1024_S256x1024_S2048x256_1_1_0_0_n_n 1024 rfl rfl k
  have el : dot_S2048x1024_S256x1024_S2048x256_1_1_0_0_n_n.lhsIdx (ix2 r c) ((contrEquiv1 dot_S2048x1024_S256x1024_S2048x256_1_1_0_0_n_n 1024 rfl rfl).symm k) = ix2 r k :=
    funext fun b => Fin.ext (by
      match b with
      | ⟨0, _⟩ => exact proj_lhs0 _ _
      | ⟨1, _⟩ => exact (proj_lhs1 _ _).trans hk)
  have er : dot_S2048x1024_S256x1024_S2048x256_1_1_0_0_n_n.rhsIdx (ix2 r c) ((contrEquiv1 dot_S2048x1024_S256x1024_S2048x256_1_1_0_0_n_n 1024 rfl rfl).symm k) = ix2 c k :=
    funext fun b => Fin.ext (by
      match b with
      | ⟨0, _⟩ => exact proj_rhs0 _ _
      | ⟨1, _⟩ => exact (proj_rhs1 _ _).trans hk)
  rw [el, er]

theorem down_lhs0 (i : S2048x1024.Idx) (q : dot_S2048x256_S1024x256_S2048x1024_1_1_0_0_n_n.contr.Idx) : (dot_S2048x256_S1024x256_S2048x1024_1_1_0_0_n_n.lhsIdx i q 0).val = (i 0).val := by
  unfold DotDims.lhsIdx
  rw [dif_neg (show ¬(0 : Fin S2048x256.rank) ∈ dot_S2048x256_S1024x256_S2048x1024_1_1_0_0_n_n.lhsBatch by decide),
    dif_pos (show (0 : Fin S2048x256.rank) ∈ dot_S2048x256_S1024x256_S2048x1024_1_1_0_0_n_n.lhsNonContracting by decide)]
  rfl
theorem down_lhs1 (i : S2048x1024.Idx) (q : dot_S2048x256_S1024x256_S2048x1024_1_1_0_0_n_n.contr.Idx) : (dot_S2048x256_S1024x256_S2048x1024_1_1_0_0_n_n.lhsIdx i q 1).val = (q ⟨0, by decide⟩).val :=
  dot_S2048x256_S1024x256_S2048x1024_1_1_0_0_n_n.lhsIdx_val_of_single rfl i q
theorem down_rhs0 (i : S2048x1024.Idx) (q : dot_S2048x256_S1024x256_S2048x1024_1_1_0_0_n_n.contr.Idx) : (dot_S2048x256_S1024x256_S2048x1024_1_1_0_0_n_n.rhsIdx i q 0).val = (i 1).val := by
  unfold DotDims.rhsIdx
  rw [dif_neg (show ¬(0 : Fin S1024x256.rank) ∈ dot_S2048x256_S1024x256_S2048x1024_1_1_0_0_n_n.rhsBatch by decide),
    dif_pos (show (0 : Fin S1024x256.rank) ∈ dot_S2048x256_S1024x256_S2048x1024_1_1_0_0_n_n.rhsNonContracting by decide)]
  rfl
theorem down_rhs1 (i : S2048x1024.Idx) (q : dot_S2048x256_S1024x256_S2048x1024_1_1_0_0_n_n.contr.Idx) : (dot_S2048x256_S1024x256_S2048x1024_1_1_0_0_n_n.rhsIdx i q 1).val = (q ⟨0, by decide⟩).val :=
  dot_S2048x256_S1024x256_S2048x1024_1_1_0_0_n_n.rhsIdx_val_of_single rfl i q

/-- The hidden tile [2048,256] against the down tile [1024,256] into a zero accumulator: entry `(r, d)` is the
    sum over the tile's 256 hidden units. -/
theorem down_apply (a : FVec Ideal S2048x256 .bf16) (w : FVec Ideal S1024x256 .bf16) (r : Fin 2048) (c : Fin 1024) :
    matmul dot_S2048x256_S1024x256_S2048x1024_1_1_0_0_n_n none a w (constant S2048x1024 .f32 0x00000000#32) (ix2 r c)
      = ∑ k : Fin 256, a (ix2 r k) * w (ix2 c k) := by
  simp only [matmul]
  rw [Ideal.matmul_constant_zero_apply, ← Equiv.sum_comp (contrEquiv1 dot_S2048x256_S1024x256_S2048x1024_1_1_0_0_n_n 256 rfl rfl).symm]
  refine Finset.sum_congr rfl fun k _ => ?_
  have hk := contrEquiv1_symm_val dot_S2048x256_S1024x256_S2048x1024_1_1_0_0_n_n 256 rfl rfl k
  have el : dot_S2048x256_S1024x256_S2048x1024_1_1_0_0_n_n.lhsIdx (ix2 r c) ((contrEquiv1 dot_S2048x256_S1024x256_S2048x1024_1_1_0_0_n_n 256 rfl rfl).symm k) = ix2 r k :=
    funext fun b => Fin.ext (by
      match b with
      | ⟨0, _⟩ => exact down_lhs0 _ _
      | ⟨1, _⟩ => exact (down_lhs1 _ _).trans hk)
  have er : dot_S2048x256_S1024x256_S2048x1024_1_1_0_0_n_n.rhsIdx (ix2 r c) ((contrEquiv1 dot_S2048x256_S1024x256_S2048x1024_1_1_0_0_n_n 256 rfl rfl).symm k) = ix2 c k :=
    funext fun b => Fin.ext (by
      match b with
      | ⟨0, _⟩ => exact down_rhs0 _ _
      | ⟨1, _⟩ => exact (down_rhs1 _ _).trans hk)
  rw [el, er]

/-! ## The unit leading axis of a block -/

/-- A [1,p,q] block viewed [p,q] reads `(0, r, c)` at `(r, c)`. -/
theorem drop_unit {p q : Nat} {α : Type} (v : (⟨3, ![1, p, q]⟩ : Shape).Idx → α)
    (h : (⟨3, ![1, p, q]⟩ : Shape).ShapeCasts ⟨2, ![p, q]⟩) (r : Fin p) (c : Fin q) :
    shapeCast ⟨2, ![p, q]⟩ v h (ix2 r c) = v (ix3 (0 : Fin 1) r c) := by
  rw [shapeCast_dropUnit_apply ![p, q] v h (ix2 r c)]
  refine congrArg v (funext fun b => ?_)
  match b with
  | ⟨0, _⟩ => rfl
  | ⟨1, _⟩ => rfl
  | ⟨2, _⟩ => rfl

/-- A [p,q] value stored as a [1,p,q] block reads `(r, c)` at `(0, r, c)`. -/
theorem add_unit {p q : Nat} {α : Type} (v : (⟨2, ![p, q]⟩ : Shape).Idx → α)
    (h : (⟨2, ![p, q]⟩ : Shape).ShapeCasts ⟨3, ![1, p, q]⟩) (r : Fin p) (c : Fin q) :
    shapeCast ⟨3, ![1, p, q]⟩ v h (ix3 (0 : Fin 1) r c) = v (ix2 r c) := by
  rw [shapeCast_addUnit_apply ![p, q] v h (ix3 (0 : Fin 1) r c)]
  refine congrArg v (funext fun b => ?_)
  match b with
  | ⟨0, _⟩ => rfl
  | ⟨1, _⟩ => rfl

/-- The logistic of a vector, lane by lane, is the extended reals' `1 / (1 + e⁻ˣ)`. -/
theorem logistic_apply {s : Shape} {φ : FTy} (x : FVec Ideal s φ) (i : s.Idx) : logistic x i = Ideal.logistic (x i) := rfl

/-- What the first point of a run stores before accumulating: zero everywhere. -/
theorem zero_apply (y : S1x2048x1024.Idx) : k0_pay1 (F := Ideal) y = 0 := by
  obtain ⟨z, r, d, rfl⟩ : ∃ (z : Fin 1) (r : Fin 2048) (d : Fin 1024), y = ix3 z r d := ⟨y 0, y 1, y 2, eq_ix3 y⟩
  obtain rfl : z = 0 := Subsingleton.elim _ _
  unfold k0_pay1
  rw [add_unit]
  show Ideal.ofBits .f32 0x00000000#32 = 0
  exact Ideal.ofBits_zero_f32

/-- One tile's contribution to entry `(r, d)` of the output block, from the point's blocks. -/
def tileSum (a : Vec Ideal S1x2048x1024 .bf16) (g u : Vec Ideal S1x256x1024 .bf16) (w : Vec Ideal S1x1024x256 .bf16)
    (r : Fin 2048) (d : Fin 1024) : EReal :=
  ∑ j : Fin 256,
    Cert.Swiglu.act (∑ k : Fin 1024, a (ix3 (0 : Fin 1) r k) * g (ix3 (0 : Fin 1) j k))
      (∑ k : Fin 1024, a (ix3 (0 : Fin 1) r k) * u (ix3 (0 : Fin 1) j k)) * w (ix3 (0 : Fin 1) d j)

/-- What a point stores: the block as it found it plus the tile's contribution, entry by entry. -/
theorem step_apply (a : Vec Ideal S1x2048x1024 .bf16) (g u : Vec Ideal S1x256x1024 .bf16) (w : Vec Ideal S1x1024x256 .bf16)
    (acc : Vec Ideal S1x2048x1024 .f32) (r : Fin 2048) (d : Fin 1024) :
    k0_pay2 (F := Ideal) a g u w acc (ix3 (0 : Fin 1) r d) = acc (ix3 (0 : Fin 1) r d) + tileSum a g u w r d := by
  unfold k0_pay2
  rw [add_unit, addf_apply, drop_unit, down_apply]
  refine congrArg (acc (ix3 (0 : Fin 1) r d) + ·) (Finset.sum_congr rfl fun j _ => ?_)
  rw [drop_unit, truncf_apply, mulf_apply, mulf_apply, logistic_apply, proj_apply, proj_apply]
  simp only [drop_unit]
  rfl

end Cert.KernelIdeal.Tile

end
-- ==== Proof.KernelIsSwiglu.lean ====
/-
  The kernel's result array is the SwiGLU layer of the specification.

  The grid has 8 × 16 points; point `t` works on expert `t / 16` and hidden tile `t % 16`. It reads expert
  `t / 16`'s whole token block, rows `256·(t % 16) …` of that expert's gate and up weights, and columns
  `256·(t % 16) …` of its down weights — each array as the region finds it, which is the argument itself, the
  narrowing done on the host being the identity at the ideal values. The output block of expert `e` is zeroed at
  point `16·e` and every one of the sixteen points `16·e … 16·e + 15` adds its tile's contribution, so after the
  last one entry `(r, d)` holds `0 +` the sum over the sixteen tiles of each tile's 256 contributions: by the
  specification's regrouping of the sum over the 4096 hidden units, the layer's entry `[e, r, d]`.
-/
import proofs.«115614_j4501125726437_2_alg».proof.Proof.Gen.KernelIdeal.Value
import proofs.«115614_j4501125726437_2_alg».proof.Proof.TileStep
import Idealize.ShloMosaic.Lib.StableHlo.Run

noncomputable section

open scoped BigOperators

namespace Cert.KernelIdeal.RefValue

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-! ## The arrays the region finds are the arguments -/

theorem V_tokens (c : Dev nD) : (V m c main_v0 : S8x2048x1024.Idx → EReal) = m ((c : Thread nD τ).loc main_arg0) := by
  dsimp only [Gen.V, Gen.hostOps0]; after_results; rfl
theorem V_gate (c : Dev nD) : (V m c main_v1 : S8x4096x1024.Idx → EReal) = m ((c : Thread nD τ).loc main_arg1) := by
  dsimp only [Gen.V, Gen.hostOps0]; after_results; rfl
theorem V_up (c : Dev nD) : (V m c main_v2 : S8x4096x1024.Idx → EReal) = m ((c : Thread nD τ).loc main_arg2) := by
  dsimp only [Gen.V, Gen.hostOps0]; after_results; rfl
theorem V_down (c : Dev nD) : (V m c main_v3 : S8x1024x4096.Idx → EReal) = m ((c : Thread nD τ).loc main_arg3) := by
  dsimp only [Gen.V, Gen.hostOps0]; after_results; rfl

/-! ## Which block each point reads -/

/-- The printed index maps, decided once over the grid: every window's expert coordinate is `t / 16`; the gate and
    up windows' row tile and the down window's column tile are `t % 16`; every other block coordinate is `0`. -/
theorem block_indices : ∀ t : Fin cfg0.N,
    (win0_0.index t (0 : Fin 3) = t.val / 16 ∧ win0_0.index t (1 : Fin 3) = 0 ∧ win0_0.index t (2 : Fin 3) = 0)
    ∧ (win0_1.index t (0 : Fin 3) = t.val / 16 ∧ win0_1.index t (1 : Fin 3) = t.val % 16 ∧ win0_1.index t (2 : Fin 3) = 0)
    ∧ (win0_2.index t (0 : Fin 3) = t.val / 16 ∧ win0_2.index t (1 : Fin 3) = t.val % 16 ∧ win0_2.index t (2 : Fin 3) = 0)
    ∧ (win0_3.index t (0 : Fin 3) = t.val / 16 ∧ win0_3.index t (1 : Fin 3) = 0 ∧ win0_3.index t (2 : Fin 3) = t.val % 16) :=
  (by decide +kernel : ∀ t : Fin grid0.N, _)

/-- The token block at point `t`, entry `(0, r, k)`: expert `t / 16`'s row `r`. -/
theorem tokens_blk (c : Dev nD) (t : Fin cfg0.N) (y : S1x2048x1024.Idx) (i : S8x2048x1024.Idx)
    (h0 : (i 0).val = t.val / 16) (h1 : (i 1).val = (y 1).val) (h2 : (i 2).val = (y 2).val) :
    (iblk m c 0 t : Vec Ideal S1x2048x1024 .bf16) y = m ((c : Thread nD τ).loc main_arg0) i := by
  obtain ⟨⟨e0, e1, e2⟩, -⟩ := block_indices t
  have hy0 : (y 0).val < 1 := (y 0).isLt
  unfold iblk
  rw [View.read_apply]
  show V m c main_v0 _ = _
  rw [V_tokens]
  refine congrArg _ (funext fun a => Fin.ext ?_)
  match a with
  | ⟨0, _⟩ => show win0_0.index t (0 : Fin 3) * 1 + 1 * (y 0).val = (i 0).val; omega
  | ⟨1, _⟩ => show win0_0.index t (1 : Fin 3) * 2048 + 1 * (y 1).val = (i 1).val; omega
  | ⟨2, _⟩ => show win0_0.index t (2 : Fin 3) * 1024 + 1 * (y 2).val = (i 2).val; omega

/-- The gate tile at point `t`, entry `(0, j, k)`: expert `t / 16`'s weight row `256·(t % 16) + j`. -/
theorem gate_blk (c : Dev nD) (t : Fin cfg0.N) (y : S1x256x1024.Idx) (i : S8x4096x1024.Idx)
    (h0 : (i 0).val = t.val / 16) (h1 : (i 1).val = 256 * (t.val % 16) + (y 1).val) (h2 : (i 2).val = (y 2).val) :
    (iblk m c 1 t : Vec Ideal S1x256x1024 .bf16) y = m ((c : Thread nD τ).loc main_arg1) i := by
  obtain ⟨-, ⟨e0, e1, e2⟩, -⟩ := block_indices t
  have hy0 : (y 0).val < 1 := (y 0).isLt
  unfold iblk
  rw [View.read_apply]
  show V m c main_v1 _ = _
  rw [V_gate]
  refine congrArg _ (funext fun a => Fin.ext ?_)
  match a with
  | ⟨0, _⟩ => show win0_1.index t (0 : Fin 3) * 1 + 1 * (y 0).val = (i 0).val; omega
  | ⟨1, _⟩ => show win0_1.index t (1 : Fin 3) * 256 + 1 * (y 1).val = (i 1).val; omega
  | ⟨2, _⟩ => show win0_1.index t (2 : Fin 3) * 1024 + 1 * (y 2).val = (i 2).val; omega

/-- The up tile at point `t`, entry `(0, j, k)`: expert `t / 16`'s weight row `256·(t % 16) + j`. -/
theorem up_blk (c : Dev nD) (t : Fin cfg0.N) (y : S1x256x1024.Idx) (i : S8x4096x1024.Idx)
    (h0 : (i 0).val = t.val / 16) (h1 : (i 1).val = 256 * (t.val % 16) + (y 1).val) (h2 : (i 2).val = (y 2).val) :
    (iblk m c 2 t : Vec Ideal S1x256x1024 .bf16) y = m ((c : Thread nD τ).loc main_arg2) i := by
  obtain ⟨-, -, ⟨e0, e1, e2⟩, -⟩ := block_indices t
  have hy0 : (y 0).val < 1 := (y 0).isLt
  unfold iblk
  rw [View.read_apply]
  show V m c main_v2 _ = _
  rw [V_up]
  refine congrArg _ (funext fun a => Fin.ext ?_)
  match a with
  | ⟨0, _⟩ => show win0_2.index t (0 : Fin 3) * 1 + 1 * (y 0).val = (i 0).val; omega
  | ⟨1, _⟩ => show win0_2.index t (1 : Fin 3) * 256 + 1 * (y 1).val = (i 1).val; omega
  | ⟨2, _⟩ => show win0_2.index t (2 : Fin 3) * 1024 + 1 * (y 2).val = (i 2).val; omega

/-- The down tile at point `t`, entry `(0, d, j)`: expert `t / 16`'s weight column `256·(t % 16) + j`. -/
theorem down_blk (c : Dev nD) (t : Fin cfg0.N) (y : S1x1024x256.Idx) (i : S8x1024x4096.Idx)
    (h0 : (i 0).val = t.val / 16) (h1 : (i 1).val = (y 1).val) (h2 : (i 2).val = 256 * (t.val % 16) + (y 2).val) :
    (iblk m c 3 t : Vec Ideal S1x1024x256 .bf16) y = m ((c : Thread nD τ).loc main_arg3) i := by
  obtain ⟨-, -, -, e0, e1, e2⟩ := block_indices t
  have hy0 : (y 0).val < 1 := (y 0).isLt
  unfold iblk
  rw [View.read_apply]
  show V m c main_v3 _ = _
  rw [V_down]
  refine congrArg _ (funext fun a => Fin.ext ?_)
  match a with
  | ⟨0, _⟩ => show win0_3.index t (0 : Fin 3) * 1 + 1 * (y 0).val = (i 0).val; omega
  | ⟨1, _⟩ => show win0_3.index t (1 : Fin 3) * 1024 + 1 * (y 1).val = (i 1).val; omega
  | ⟨2, _⟩ => show win0_3.index t (2 : Fin 3) * 256 + 1 * (y 2).val = (i 2).val; omega

/-! ## One point's contribution -/

/-- What point `n` adds to entry `y` of its output block (zero past the grid, where it is never read). -/
def addend (c : Dev nD) (n : ℕ) (y : S1x2048x1024.Idx) : EReal :=
  if h : n < cfg0.N then
    Tile.tileSum (iblk m c 0 ⟨n, h⟩) (iblk m c 1 ⟨n, h⟩) (iblk m c 2 ⟨n, h⟩) (iblk m c 3 ⟨n, h⟩) (y 1) (y 2)
  else 0

/-- A run's first point stores zero plus its tile's contribution; -/
theorem reset_apply (c : Dev nD) (n : ℕ) (h : n < cfg0.N) (y : S1x2048x1024.Idx) :
    Value.reset4 m c n h y = 0 + addend m c n y := by
  obtain ⟨z, r, d, rfl⟩ : ∃ (z : Fin 1) (r : Fin 2048) (d : Fin 1024), y = ix3 z r d := ⟨y 0, y 1, y 2, eq_ix3 y⟩
  obtain rfl : z = 0 := Subsingleton.elim _ _
  unfold Value.reset4 addend
  rw [dif_pos h, Tile.step_apply, Tile.zero_apply]

/-- every later point adds its tile's contribution to what the point before left. -/
theorem step_apply (c : Dev nD) (n : ℕ) (h : n < cfg0.N) (acc : Vec Ideal S1x2048x1024 .f32) (y : S1x2048x1024.Idx) :
    Value.step4 m c n h acc y = acc y + addend m c n y := by
  obtain ⟨z, r, d, rfl⟩ : ∃ (z : Fin 1) (r : Fin 2048) (d : Fin 1024), y = ix3 z r d := ⟨y 0, y 1, y 2, eq_ix3 y⟩
  obtain rfl : z = 0 := Subsingleton.elim _ _
  unfold Value.step4 addend
  rw [dif_pos h, Tile.step_apply]

/-- Point `16·e + s`'s contribution to entry `(r, d)` is tile `s`'s 256 terms of the layer's entry `[e, r, d]`. -/
theorem addend_eq (c : Dev nD) (e : Fin 8) (s : Fin 16) (r : Fin 2048) (d : Fin 1024) :
    addend m c (16 * e.val + s.val) (ix3 (0 : Fin 1) r d)
      = ∑ j : Fin 256, Cert.Swiglu.term (m ((c : Thread nD τ).loc main_arg0)) (m ((c : Thread nD τ).loc main_arg1))
          (m ((c : Thread nD τ).loc main_arg2)) (m ((c : Thread nD τ).loc main_arg3)) e r d (Cert.Swiglu.tileIdx s j) := by
  have he := e.isLt
  have hs := s.isLt
  have hN : 16 * e.val + s.val < cfg0.N := lt_of_lt_of_eq (by omega) (show 128 = cfg0.N from N_0.symm)
  have hq : (16 * e.val + s.val) / 16 = e.val := by omega
  have hm : (16 * e.val + s.val) % 16 = s.val := by omega
  unfold addend
  rw [dif_pos hN]
  unfold Tile.tileSum Cert.Swiglu.term Cert.Swiglu.proj
  refine Finset.sum_congr rfl fun j _ => ?_
  rw [down_blk m c ⟨_, hN⟩ (ix3 (0 : Fin 1) d j) (ix3 e d (Cert.Swiglu.tileIdx s j)) hq.symm rfl
    (by show 256 * s.val + j.val = 256 * ((16 * e.val + s.val) % 16) + j.val; rw [hm])]
  refine congrArg (· * _) ?_
  refine congrArg₂ Cert.Swiglu.act (Finset.sum_congr rfl fun k _ => ?_) (Finset.sum_congr rfl fun k _ => ?_)
  · rw [tokens_blk m c ⟨_, hN⟩ (ix3 (0 : Fin 1) r k) (ix3 e r k) hq.symm rfl rfl,
      gate_blk m c ⟨_, hN⟩ (ix3 (0 : Fin 1) j k) (ix3 e (Cert.Swiglu.tileIdx s j) k) hq.symm
        (by show 256 * s.val + j.val = 256 * ((16 * e.val + s.val) % 16) + j.val; rw [hm]) rfl]
  · rw [tokens_blk m c ⟨_, hN⟩ (ix3 (0 : Fin 1) r k) (ix3 e r k) hq.symm rfl rfl,
      up_blk m c ⟨_, hN⟩ (ix3 (0 : Fin 1) j k) (ix3 e (Cert.Swiglu.tileIdx s j) k) hq.symm
        (by show 256 * s.val + j.val = 256 * ((16 * e.val + s.val) % 16) + j.val; rw [hm]) rfl]

/-! ## The whole array -/

/-- The kernel's result array is the specification's layer of the four arguments. -/
theorem result_eq (c : Dev nD) :
    Value.G4 m c = Cert.Swiglu.swiglu (m ((c : Thread nD τ).loc main_arg0)) (m ((c : Thread nD τ).loc main_arg1))
      (m ((c : Thread nD τ).loc main_arg2)) (m ((c : Thread nD τ).loc main_arg3)) := by
  funext i
  obtain ⟨e, r, d, rfl⟩ : ∃ (e : Fin 8) (r : Fin 2048) (d : Fin 1024), i = ix3 e r d := ⟨i 0, i 1, i 2, eq_ix3 i⟩
  have he := e.isLt
  have hr := r.isLt
  have hd := d.isLt
  have hN : cfg0.N = 128 := N_0
  have hrun : Value.run4Of (ix3 e r d) = e.val := by
    show 1 * (e.val / 1 - 0) + 1 * (r.val / 2048 - 0) + 1 * (d.val / 1024 - 0) = e.val
    omega
  have hloc : Value.loc4Of (ix3 e r d) = ix3 (0 : Fin 1) r d := by
    funext a; apply Fin.ext
    match a with
    | ⟨0, _⟩ => show e.val % 1 = 0; omega
    | ⟨1, _⟩ => show r.val % 2048 = r.val; omega
    | ⟨2, _⟩ => show d.val % 1024 = d.val; omega
  have hb : 16 * e.val + 15 < cfg0.N := by rw [hN]; omega
  have same : ∀ (b : ℕ) (h : b + 15 < cfg0.N), b = 16 * e.val →
      Pipeline.accAt (Value.reset4 m c) (Value.step4 m c) b 15 h = Pipeline.accAt (Value.reset4 m c) (Value.step4 m c) (16 * e.val) 15 hb := by
    intro b h hbe; subst hbe; rfl
  unfold Value.G4
  rw [dif_pos (by rw [hrun]; exact hb), hloc, same _ _ (by rw [hrun]),
    Pipeline.accAt_add_apply (ι := S1x2048x1024.Idx) (β := EReal) (Value.reset4 m c) (Value.step4 m c) (fun _ => 0) (addend m c) (16 * e.val) 15
      (fun h y => reset_apply m c _ h y) (fun n h acc y _ _ => step_apply m c n h acc y) 15 le_rfl hb,
    zero_add, Finset.sum_range, Cert.Swiglu.swiglu_tiles]
  exact (Finset.sum_congr rfl fun s _ => addend_eq m c e s r d :
    (∑ s : Fin 16, addend m c (16 * e.val + s.val) (ix3 (0 : Fin 1) r d))
      = ∑ s : Fin 16, ∑ j : Fin 256, Cert.Swiglu.term (m ((c : Thread nD τ).loc main_arg0)) (m ((c : Thread nD τ).loc main_arg1))
          (m ((c : Thread nD τ).loc main_arg2)) (m ((c : Thread nD τ).loc main_arg3)) e r d (Cert.Swiglu.tileIdx s j))

end Cert.KernelIdeal.RefValue

end
-- ==== Proof.lean ====
/-
  A batched SwiGLU expert layer, tiled over the hidden axis, against the same layer written as three einsums.

  For each of 8 experts the kernel keeps the expert's 2048 × 1024 output block resident, walks the 4096 hidden
  units in sixteen tiles of 256, and at each tile adds `(silu (x·Wgᵀ) ⊙ (x·Wuᵀ)) · Wdᵀ` restricted to the tile,
  the block zeroed at the first tile. The reference contracts all 4096 hidden units at once. At the ideal values
  the operands' narrowing is the identity, each matrix product is the plain sum over its contracted axis, and
  `tpu.logistic` is `1 / (1 + e⁻ˣ)`, which is how the reference spells it; so both results are, entry by entry,
  `∑ f < 4096, g·logistic g·u · Wd[e,d,f]` with `g`, `u` the gate and up projections
  (`Cert.Swiglu.swiglu`, Proof/SwigluSpec.lean). The kernel's side regroups that sum by tiles
  (`Cert.Swiglu.sum_tiles`): commutativity and associativity of addition on the extended reals only, so the
  precondition is not used in the value claim.

  The reference's result is read entry by entry in Proof/RefIsSwiglu.lean, one grid point's arithmetic in
  Proof/TileStep.lean, and the kernel's sixteen-point accumulation per expert in Proof/KernelIsSwiglu.lean.
  The three frame claims are the programs' runs with the result dropped; the idealization changed nothing in the
  kernel, so there is nothing to preserve.
-/
import proofs.«115614_j4501125726437_2_alg».proof.Defs
import proofs.«115614_j4501125726437_2_alg».proof.Proof.Gen.Kernel.Frame
import proofs.«115614_j4501125726437_2_alg».proof.Proof.Gen.KernelIdeal.Value
import proofs.«115614_j4501125726437_2_alg».proof.Proof.Gen.Pre_finite_inputs
import proofs.«115614_j4501125726437_2_alg».proof.Proof.Gen.ReferenceIdeal.Run
import proofs.«115614_j4501125726437_2_alg».proof.Proof.RefIsSwiglu
import proofs.«115614_j4501125726437_2_alg».proof.Proof.KernelIsSwiglu
import Idealize.ShloMosaic.Adequacy
import Idealize.ShloMosaic.Init

noncomputable section

namespace Cert.Proof

open Idealize.ShloMosaic Idealize.SL.Sem

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- Run from memories that agree on the four arguments, the kernel's result array and the reference's are the
    same SwiGLU layer of those arguments. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  rw [Cert.ReferenceIdeal.Read.val_main_v4_eq, Cert.ReferenceIdeal.RefValue.result_eq, Cert.KernelIdeal.RefValue.result_eq]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
